-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x5 : Shape := ⟨4, ![8, 512, 512, 5]⟩
abbrev S32x5 : Shape := ⟨2, ![32, 5]⟩
abbrev S32 : Shape := ⟨1, ![32]⟩
abbrev S32x32 : Shape := ⟨2, ![32, 32]⟩
abbrev S2x32 : Shape := ⟨2, ![2, 32]⟩
abbrev S2 : Shape := ⟨1, ![2]⟩
abbrev S_ : Shape := ⟨0, ![]⟩

class Facts : Prop where
  bcast_S_S8x512x512x5 : S_.BroadcastsInDim S8x512x512x5 (![] : Fin 0 → Fin S8x512x512x5.rank)
  reducesTo_S8x512x512x5_S_d0_1_2_3 : S8x512x512x5.ReducesTo [0, 1, 2, 3] S_
  h_S_ : 0 < S_.numel
  bcast_S_S32x5 : S_.BroadcastsInDim S32x5 (![] : Fin 0 → Fin S32x5.rank)
  reducesTo_S32x5_S_d0_1 : S32x5.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2x32 .f32) (main_arg8 : FVec F S2 .f32) (main_v33 : IVec S_ 1) : IVec S_ 1 :=
  let main_v34 : FVec F S2x32 .f32 := Host.absf main_arg7
  let main_cst_12 : FVec F S_ .f32 := constant S_ .f32 0x7F800000#32
  let main_v35 : FVec F S2x32 .f32 := broadcastInDim S2x32 ![] bcast_S_S2x32 main_cst_12
  let main_v36 : IVec S2x32 1 := cmpf .olt main_v34 main_v35
  let main_c_13 : IVec S_ 1 := constantI S_ 1 1#1
  let main_v37 : IVec S_ 1 := (fun x v => Host.reduce IntOp.andi x v reducesTo_S2x32_S_d0_1 h_S_) main_v36 main_c_13
  let main_v38 : IVec S_ 1 := andi main_v33 main_v37
  let main_v39 : FVec F S2 .f32 := Host.absf main_arg8
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  main_v43

def fn_part1 {F : FTy → Type} [FloatOps F] (main_arg4 : FVec F S32 .f32) (main_arg5 : FVec F S32x32 .f32) (main_arg6 : FVec F S32 .f32) (main_arg7 : FVec F S2x32 .f32) (main_arg8 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg5
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg7 main_arg8 main_v33

def fn {F : FTy → Type} [FloatOps F] (main_arg0 : FVec F S8x512x512x5 .f32) (main_arg1 : FVec F S32x5 .f32) (main_arg2 : FVec F S32 .f32) (main_arg3 : FVec F S32x32 .f32) (main_arg4 : FVec F S32 .f32) (main_arg5 : FVec F S32x32 .f32) (main_arg6 : FVec F S32 .f32) (main_arg7 : FVec F S2x32 .f32) (main_arg8 : FVec F S2 .f32) : IVec S_ 1 :=
  let main_v0 : FVec F S8x512x512x5 .f32 := Host.absf main_arg0
  let main_cst : FVec F S_ .f32 := constant S_ .f32 0x7F800000#32
  let main_v1 : FVec F S8x512x512x5 .f32 := broadcastInDim S8x512x512x5 ![] bcast_S_S8x512x512x5 main_cst
  let main_v2 : IVec S8x512x512x5 1 := cmpf .olt main_v0 main_v1
  let main_c : IVec S_ 1 := constantI S_ 1 1#1
  let main_v3 : IVec S_ 1 := (fun x v => Host.reduce IntOp.andi x v reducesTo_S8x512x512x5_S_d0_1_2_3 h_S_) main_v2 main_c
  let main_v4 : FVec F S32x5 .f32 := Host.absf main_arg1
  let main_cst_0 : FVec F S_ .f32 := constant S_ .f32 0x7F800000#32
  let main_v5 : FVec F S32x5 .f32 := broadcastInDim S32x5 ![] bcast_S_S32x5 main_cst_0
  let main_v6 : IVec S32x5 1 := cmpf .olt main_v4 main_v5
  let main_c_1 : IVec S_ 1 := constantI S_ 1 1#1
  let main_v7 : IVec S_ 1 := (fun x v => Host.reduce IntOp.andi x v reducesTo_S32x5_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg3
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg4 main_arg5 main_arg6 main_arg7 main_arg8 main_v13 main_v16
-- ==== Kernel.lean ====
abbrev S8x512x512x5 : Shape := ⟨4, ![8, 512, 512, 5]⟩
abbrev S32x5 : Shape := ⟨2, ![32, 5]⟩
abbrev S32 : Shape := ⟨1, ![32]⟩
abbrev S32x32 : Shape := ⟨2, ![32, 32]⟩
abbrev S2x32 : Shape := ⟨2, ![2, 32]⟩
abbrev S2 : Shape := ⟨1, ![2]⟩
abbrev S2097152x5 : Shape := ⟨2, ![2097152, 5]⟩
abbrev S5x2097152 : Shape := ⟨2, ![5, 2097152]⟩
abbrev S32x1 : Shape := ⟨2, ![32, 1]⟩
abbrev S2x1 : Shape := ⟨2, ![2, 1]⟩
abbrev S2x2097152 : Shape := ⟨2, ![2, 2097152]⟩
abbrev S5x32768 : Shape := ⟨2, ![5, 32768]⟩
abbrev S2x32768 : Shape := ⟨2, ![2, 32768]⟩
abbrev S32x32768 : Shape := ⟨2, ![32, 32768]⟩
abbrev S2097152x2 : Shape := ⟨2, ![2097152, 2]⟩
abbrev S8x512x512x2 : Shape := ⟨4, ![8, 512, 512, 2]⟩

abbrev nBuf : Space → Nat
  | .hbm => 18
  | .vmem => 12
  | .smem => 0
  | _ => 0

abbrev bufTy : (tb : Table) → Fin (tcTables nBuf tb) → BufTy
  | .hbm, ⟨0, _⟩ => ⟨S8x512x512x5, .f32⟩
  | .hbm, ⟨1, _⟩ => ⟨S32x5, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S2097152x5, .f32⟩
  | .hbm, ⟨10, _⟩ => ⟨S5x2097152, .f32⟩
  | .hbm, ⟨11, _⟩ => ⟨S32x1, .f32⟩
  | .hbm, ⟨12, _⟩ => ⟨S32x1, .f32⟩
  | .hbm, ⟨13, _⟩ => ⟨S32x1, .f32⟩
  | .hbm, ⟨14, _⟩ => ⟨S2x1, .f32⟩
  | .hbm, ⟨15, _⟩ => ⟨S2x2097152, .f32⟩
  | .hbm, ⟨16, _⟩ => ⟨S2097152x2, .f32⟩
  | .hbm, ⟨17, _⟩ => ⟨S8x512x512x2, .f32⟩
  | .local _ .vmem, ⟨0, _⟩ => ⟨S5x32768, .f32⟩
  | .local _ .vmem, ⟨1, _⟩ => ⟨S5x32768, .f32⟩
  | .local _ .vmem, ⟨2, _⟩ => ⟨S32x5, .f32⟩
  | .local _ .vmem, ⟨3, _⟩ => ⟨S32x1, .f32⟩
  | .local _ .vmem, ⟨4, _⟩ => ⟨S32x32, .f32⟩
  | .local _ .vmem, ⟨5, _⟩ => ⟨S32x1, .f32⟩
  | .local _ .vmem, ⟨6, _⟩ => ⟨S32x32, .f32⟩
  | .local _ .vmem, ⟨7, _⟩ => ⟨S32x1, .f32⟩
  | .local _ .vmem, ⟨8, _⟩ => ⟨S2x32, .f32⟩
  | .local _ .vmem, ⟨9, _⟩ => ⟨S2x1, .f32⟩
  | .local _ .vmem, ⟨10, _⟩ => ⟨S2x32768, .f32⟩
  | .local _ .vmem, ⟨11, _⟩ => ⟨S2x32768, .f32⟩
  | _, _ => ⟨S8x512x512x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x32768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S8x512x512x5_S2097152x5 : S8x512x512x5.ShapeCasts S2097152x5
  transposes_S2097152x5_S5x2097152_1_0 : S2097152x5.Transposes [1, 0] S5x2097152
  shapeCasts_S32_S32x1 : S32.ShapeCasts S32x1
  shapeCasts_S2_S2x1 : S2.ShapeCasts S2x1
  inb_S5x32768_S5x32768_0_0 : ∀ a, (![0, 0] : Fin 2 → Nat) a + S5x32768.size a ≤ S5x32768.size a
  h_S5x32768 : 0 < S5x32768.numel
  shapeCasts_S5x32768_S5x32768 : S5x32768.ShapeCasts S5x32768
  inb_S32x5_S32x5_0_0 : ∀ a, (![0, 0] : Fin 2 → Nat) a + S32x5.size a ≤ S32x5.size a
  h_S32x5 : 0 < S32x5.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x32768 : S32x1.Broadcasts S32x32768
  inb_S32x32_S32x32_0_0 : ∀ a, (![0, 0] : Fin 2 → Nat) a + S32x32.size a ≤ S32x32.size a
  h_S32x32 : 0 < S32x32.numel
  inb_S2x32_S2x32_0_0 : ∀ a, (![0, 0] : Fin 2 → Nat) a + S2x32.size a ≤ S2x32.size a
  h_S2x32 : 0 < S2x32.numel
  inb_S2x1_S2x1_0_0 : ∀ a, (![0, 0] : Fin 2 → Nat) a + S2x1.size a ≤ S2x1.size a
  h_S2x1 : 0 < S2x1.numel
  shapeCasts_S2x1_S2x1 : S2x1.ShapeCasts S2x1
  broadcasts_S2x1_S2x32768 : S2x1.Broadcasts S2x32768
  inb_S2x32768_S2x32768_0_0 : ∀ a, (![0, 0] : Fin 2 → Nat) a + S2x32768.size a ≤ S2x32768.size a
  h_S2x32768 : 0 < S2x32768.numel
  transposes_S2x2097152_S2097152x2_1_0 : S2x2097152.Transposes [1, 0] S2097152x2
  shapeCasts_S2097152x2_S8x512x512x2 : S2097152x2.ShapeCasts S8x512x512x2
  dot_S32x5_S5x32768_S32x32768_1_0_0_1_n_n_wf : DotDims.WF S32x5 S5x32768 S32x32768 [1] [0] [0] [1] [] []
  dot_S32x32_S32x32768_S32x32768_1_0_0_1_n_n_wf : DotDims.WF S32x32 S32x32768 S32x32768 [1] [0] [0] [1] [] []
  dot_S2x32_S32x32768_S2x32768_1_0_0_1_n_n_wf : DotDims.WF S2x32 S32x32768 S2x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5x32768.size a ≤ S5x2097152.size a
  hwx0_0 : ∀ i : grid0.Coords, EltTy.bits .f32 = 32 ∨ (Rect.block (s := S5x2097152) S5x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x5.size a ≤ S32x5.size a
  hwx0_1 : ∀ i : grid0.Coords, EltTy.bits .f32 = 32 ∨ (Rect.block (s := S32x5) S32x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S32x1.size a
  hwx0_2 : ∀ i : grid0.Coords, EltTy.bits .f32 = 32 ∨ (Rect.block (s := S32x1) S32x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S32x1.size a
  hwx0_4 : ∀ i : grid0.Coords, EltTy.bits .f32 = 32 ∨ (Rect.block (s := S32x1) S32x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .f32 = 32 ∨ (Rect.block (s := S32x32) S32x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x32.size a ≤ S2x32.size a
  hwx0_7 : ∀ i : grid0.Coords, EltTy.bits .f32 = 32 ∨ (Rect.block (s := S2x32) S2x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2x1.size a ≤ S2x1.size a
  hwx0_8 : ∀ i : grid0.Coords, EltTy.bits .f32 = 32 ∨ (Rect.block (s := S2x1) S2x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2x32768.size a ≤ S2x2097152.size a
  hwx0_9 : ∀ i : grid0.Coords, EltTy.bits .f32 = 32 ∨ (Rect.block (s := S2x2097152) S2x32768.size (cc0_transform_9 i) (hinb0_9 i)).WholeWords (EltTy.packing .f32)

variable [Facts₀]

def dot_S32x5_S5x32768_S32x32768_1_0_0_1_n_n : DotDims S32x5 S5x32768 S32x32768 where
  lhsContracting := [1]
  rhsContracting := [0]
  lhsNonContracting := [0]
  rhsNonContracting := [1]
  lhsBatch := []
  rhsBatch := []
  wf := dot_S32x5_S5x32768_S32x32768_1_0_0_1_n_n_wf
def dot_S32x32_S32x32768_S32x32768_1_0_0_1_n_n : DotDims S32x32 S32x32768 S32x32768 where
  lhsContracting := [1]
  rhsContracting := [0]
  lhsNonContracting := [0]
  rhsNonContracting := [1]
  lhsBatch := []
  rhsBatch := []
  wf := dot_S32x32_S32x32768_S32x32768_1_0_0_1_n_n_wf
def dot_S2x32_S32x32768_S2x32768_1_0_0_1_n_n : DotDims S2x32 S32x32768 S2x32768 where
  lhsContracting := [1]
  rhsContracting := [0]
  lhsNonContracting := [0]
  rhsNonContracting := [1]
  lhsBatch := []
  rhsBatch := []
  wf := dot_S2x32_S32x32768_S2x32768_1_0_0_1_n_n_wf

abbrev win0_0 : Pipeline.Window sig grid0 :=
  Pipeline.Window.ofSpec (Memref.whole main_v1) S5x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S32x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S2x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S2x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S2x32768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8x512x512x5 : Shape := ⟨4, ![8, 512, 512, 5]⟩
abbrev S32x5 : Shape := ⟨2, ![32, 5]⟩
abbrev S32 : Shape := ⟨1, ![32]⟩
abbrev S32x32 : Shape := ⟨2, ![32, 32]⟩
abbrev S2x32 : Shape := ⟨2, ![2, 32]⟩
abbrev S2 : Shape := ⟨1, ![2]⟩
abbrev S8x512x512x32 : Shape := ⟨4, ![8, 512, 512, 32]⟩
abbrev S1x1x1x32 : Shape := ⟨4, ![1, 1, 1, 32]⟩
abbrev S8x512x512x2 : Shape := ⟨4, ![8, 512, 512, 2]⟩
abbrev S1x1x1x2 : Shape := ⟨4, ![1, 1, 1, 2]⟩

abbrev nBuf : Space → Nat
  | .hbm => 28
  | .vmem => 0
  | .smem => 0
  | _ => 0

abbrev bufTy : (tb : Table) → Fin (tcTables nBuf tb) → BufTy
  | .hbm, ⟨0, _⟩ => ⟨S8x512x512x5, .f32⟩
  | .hbm, ⟨1, _⟩ => ⟨S32x5, .f32⟩
  | .hbm, ⟨2, _⟩ => ⟨S32, .f32⟩
  | .hbm, ⟨3, _⟩ => ⟨S32x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S2x32, .f32⟩
  | .hbm, ⟨8, _⟩ => ⟨S2, .f32⟩
  | .hbm, ⟨9, _⟩ => ⟨S8x512x512x32, .f32⟩
  | .hbm, ⟨10, _⟩ => ⟨S1x1x1x32, .f32⟩
  | .hbm, ⟨11, _⟩ => ⟨S8x512x512x32, .f32⟩
  | .hbm, ⟨12, _⟩ => ⟨S8x512x512x32, .f32⟩
  | .hbm, ⟨13, _⟩ => ⟨S8x512x512x32, .f32⟩
  | .hbm, ⟨14, _⟩ => ⟨S8x512x512x32, .f32⟩
  | .hbm, ⟨15, _⟩ => ⟨S1x1x1x32, .f32⟩
  | .hbm, ⟨16, _⟩ => ⟨S8x512x512x32, .f32⟩
  | .hbm, ⟨17, _⟩ => ⟨S8x512x512x32, .f32⟩
  | .hbm, ⟨18, _⟩ => ⟨S8x512x512x32, .f32⟩
  | .hbm, ⟨19, _⟩ => ⟨S8x512x512x32, .f32⟩
  | .hbm, ⟨20, _⟩ => ⟨S1x1x1x32, .f32⟩
  | .hbm, ⟨21, _⟩ => ⟨S8x512x512x32, .f32⟩
  | .hbm, ⟨22, _⟩ => ⟨S8x512x512x32, .f32⟩
  | .hbm, ⟨23, _⟩ => ⟨S8x512x512x32, .f32⟩
  | .hbm, ⟨24, _⟩ => ⟨S8x512x512x2, .f32⟩
  | .hbm, ⟨25, _⟩ => ⟨S1x1x1x2, .f32⟩
  | .hbm, ⟨26, _⟩ => ⟨S8x512x512x2, .f32⟩
  | .hbm, ⟨27, _⟩ => ⟨S8x512x512x2, .f32⟩
  | _, _ => ⟨S8x512x512x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S32_S1x1x1x32_3 : S32.BroadcastsInDim S1x1x1x32 (![3] : Fin 1 → Fin S1x1x1x32.rank)
  bcast_S1x1x1x32_S8x512x512x32_0_1_2_3 : S1x1x1x32.BroadcastsInDim S8x512x512x32 (![0, 1, 2, 3] : Fin 4 → Fin S8x512x512x32.rank)
  bcast_S2_S1x1x1x2_3 : S2.BroadcastsInDim S1x1x1x2 (![3] : Fin 1 → Fin S1x1x1x2.rank)
  bcast_S1x1x1x2_S8x512x512x2_0_1_2_3 : S1x1x1x2.BroadcastsInDim S8x512x512x2 (![0, 1, 2, 3] : Fin 4 → Fin S8x512x512x2.rank)
  dot_S8x512x512x5_S32x5_S8x512x512x32_3_1_012_0_n_n_wf : DotDims.WF S8x512x512x5 S32x5 S8x512x512x32 [3] [1] [0, 1, 2] [0] [] []
  dot_S8x512x512x32_S32x32_S8x512x512x32_3_1_012_0_n_n_wf : DotDims.WF S8x512x512x32 S32x32 S8x512x512x32 [3] [1] [0, 1, 2] [0] [] []
  dot_S8x512x512x32_S2x32_S8x512x512x2_3_1_012_0_n_n_wf : DotDims.WF S8x512x512x32 S2x32 S8x512x512x2 [3] [1] [0, 1, 2] [0] [] []

variable [Facts₀]

def dot_S8x512x512x5_S32x5_S8x512x512x32_3_1_012_0_n_n : DotDims S8x512x512x5 S32x5 S8x512x512x32 where
  lhsContracting := [3]
  rhsContracting := [1]
  lhsNonContracting := [0, 1, 2]
  rhsNonContracting := [0]
  lhsBatch := []
  rhsBatch := []
  wf := dot_S8x512x512x5_S32x5_S8x512x512x32_3_1_012_0_n_n_wf
def dot_S8x512x512x32_S32x32_S8x512x512x32_3_1_012_0_n_n : DotDims S8x512x512x32 S32x32 S8x512x512x32 where
  lhsContracting := [3]
  rhsContracting := [1]
  lhsNonContracting := [0, 1, 2]
  rhsNonContracting := [0]
  lhsBatch := []
  rhsBatch := []
  wf := dot_S8x512x512x32_S32x32_S8x512x512x32_3_1_012_0_n_n_wf
def dot_S8x512x512x32_S2x32_S8x512x512x2_3_1_012_0_n_n : DotDims S8x512x512x32 S2x32 S8x512x512x2 where
  lhsContracting := [3]
  rhsContracting := [1]
  lhsNonContracting := [0, 1, 2]
  rhsNonContracting := [0]
  lhsBatch := []
  rhsBatch := []
  wf := dot_S8x512x512x32_S2x32_S8x512x512x2_3_1_012_0_n_n_wf

class Facts : Prop extends Facts₀ where

variable [Facts]
-- ==== Proof.MlpSpec.lean ====
/-
  The function both programs compute, stated once with no program in sight.

  Every pixel of the image carries a vector of five channels. A perceptron of four layers acts on it:
  three hidden layers of width 32, each an affine map followed by the hyperbolic tangent, and an affine
  output layer of width 2. An affine layer sends a vector `h` to the vector whose entry `j` is
  `Σ_k W j k · h k + b j`. All arithmetic is that of the extended reals: a sum and a product are the exact
  ones, and the hyperbolic tangent is extended by its limits at the two infinities.

  One program forms each product as `W j k · h k` and the other as `h k · W j k`. Multiplication of extended
  reals is commutative at the infinities as well, so the two sums agree term by term and no input needs to be
  finite (`sum_mul_comm`).
-/
import Idealize.ShloMosaic.PureOps.Ideal
import Idealize.ShloMosaic.Lib.ValueIdx

noncomputable section

namespace Cert.Mlp

open Idealize.ShloMosaic Idealize.ShloMosaic.ValueIdx

/-- An affine layer at one pixel: entry `j` of the result is the sum over the input channels `k` of
    `W j k · h k`, plus the bias `b j`. -/
def affine {K J : Nat} (W : Fin J → Fin K → EReal) (b : Fin J → EReal) (h : Fin K → EReal) (j : Fin J) : EReal :=
  (∑ k : Fin K, W j k * h k) + b j

/-- A hidden layer: the affine layer followed by the hyperbolic tangent. -/
def hidden {K J : Nat} (W : Fin J → Fin K → EReal) (b : Fin J → EReal) (h : Fin K → EReal) (j : Fin J) : EReal :=
  Ideal.tanh (affine W b h j)

/-- The network at one pixel: three hidden layers and the affine output layer. -/
def net (W1 : Fin 32 → Fin 5 → EReal) (b1 : Fin 32 → EReal) (W2 : Fin 32 → Fin 32 → EReal) (b2 : Fin 32 → EReal)
    (W3 : Fin 32 → Fin 32 → EReal) (b3 : Fin 32 → EReal) (W4 : Fin 2 → Fin 32 → EReal) (b4 : Fin 2 → EReal)
    (x : Fin 5 → EReal) : Fin 2 → EReal :=
  affine W4 b4 (hidden W3 b3 (hidden W2 b2 (hidden W1 b1 x)))

/-- A rank-two array read as a matrix. -/
abbrev mat {J K : Nat} (A : (⟨2, ![J, K]⟩ : Shape).Idx → EReal) : Fin J → Fin K → EReal := fun j k => A (ix2 j k)

/-- A rank-one array read as a vector. -/
abbrev vec {J : Nat} (A : (⟨1, ![J]⟩ : Shape).Idx → EReal) : Fin J → EReal := fun j => A (ix1 j)

/-- A one-column array read as a vector. -/
abbrev col {J : Nat} (A : (⟨2, ![J, 1]⟩ : Shape).Idx → EReal) : Fin J → EReal := fun j => A (ix2 j 0)

/-- The channels of the pixel in image `a`, row `b`, column `c`. -/
abbrev pixel (X : (⟨4, ![8, 512, 512, 5]⟩ : Shape).Idx → EReal) (a : Fin 8) (b : Fin 512) (c : Fin 512) : Fin 5 → EReal :=
  fun k => X (ix4 a b c k)

/-- The result array: at image `a`, row `b`, column `c` and output channel `o`, the network's output `o` at
    that pixel. -/
def result (X : (⟨4, ![8, 512, 512, 5]⟩ : Shape).Idx → EReal)
    (W1 : (⟨2, ![32, 5]⟩ : Shape).Idx → EReal) (B1 : (⟨1, ![32]⟩ : Shape).Idx → EReal)
    (W2 : (⟨2, ![32, 32]⟩ : Shape).Idx → EReal) (B2 : (⟨1, ![32]⟩ : Shape).Idx → EReal)
    (W3 : (⟨2, ![32, 32]⟩ : Shape).Idx → EReal) (B3 : (⟨1, ![32]⟩ : Shape).Idx → EReal)
    (W4 : (⟨2, ![2, 32]⟩ : Shape).Idx → EReal) (B4 : (⟨1, ![2]⟩ : Shape).Idx → EReal) :
    (⟨4, ![8, 512, 512, 2]⟩ : Shape).Idx → EReal :=
  fun i => net (mat W1) (vec B1) (mat W2) (vec B2) (mat W3) (vec B3) (mat W4) (vec B4) (pixel X (i 0) (i 1) (i 2)) (i 3)

/-- A sum of products does not depend on the order of the two factors: multiplication of extended reals is
    commutative, the infinities included. -/
theorem sum_mul_comm {K : Nat} (f g : Fin K → EReal) : (∑ k : Fin K, f k * g k) = ∑ k : Fin K, g k * f k :=
  Finset.sum_congr rfl fun k _ => mul_comm (f k) (g k)

/-- The affine layer with each product written input first: the same layer. -/
theorem affine_comm {K J : Nat} (W : Fin J → Fin K → EReal) (b : Fin J → EReal) (h : Fin K → EReal) (j : Fin J) :
    (∑ k : Fin K, h k * W j k) + b j = affine W b h j := by
  unfold affine
  rw [sum_mul_comm]

/-- The hidden layer with each product written input first: the same layer. -/
theorem hidden_comm {K J : Nat} (W : Fin J → Fin K → EReal) (b : Fin J → EReal) (h : Fin K → EReal) (j : Fin J) :
    Ideal.tanh ((∑ k : Fin K, h k * W j k) + b j) = hidden W b h j := by
  unfold hidden
  rw [affine_comm]

end Cert.Mlp

end
-- ==== Proof.RefIsMlp.lean ====
/-
  The reference program computes the perceptron of `MlpSpec`.

  The reference keeps the image in its own layout: an entry is addressed by image, row, column and channel. Each of its
  layers contracts the channel axis of the activations against the second axis of the weight matrix, so the entry at
  pixel `(a, b, c)` and output channel `j` is `Σ_k h (a, b, c, k) · W (j, k)`; the bias vector is spread over all pixels
  and added, and the hidden layers apply the hyperbolic tangent. Each product has the activation first; `MlpSpec` writes
  the weight first, and the two agree because multiplication of extended reals is commutative (`hidden_comm`,
  `affine_comm`).
-/
import proofs.«101100_j40149354283216_2_alg».proof.Proof.Gen.ReferenceIdeal.Read
import proofs.«101100_j40149354283216_2_alg».proof.Proof.MlpSpec

noncomputable section

namespace Cert.ReferenceIdeal.RefValue

open Cert.ReferenceIdeal Cert.ReferenceIdeal.Gen Cert.ReferenceIdeal.Read Idealize.ShloMosaic Idealize.ShloMosaic.ValueIdx Cert.Mlp

variable (a : Fin 8) (b c : Fin 512)

/-! ## Where each layer reads its operands -/

/-- The first layer reads the image at the same pixel, channel `k`. -/
theorem in1 (j : Fin 32) (k : Fin 5) : lidx_main_v0 (ix4 a b c j) k = ix4 a b c k :=
  funext fun d => Fin.ext (by match d with | ⟨0, _⟩ => rfl | ⟨1, _⟩ => rfl | ⟨2, _⟩ => rfl | ⟨3, _⟩ => rfl)
/-- And its weight matrix at row `j`, column `k`. -/
theorem wt1 (j : Fin 32) (k : Fin 5) : ridx_main_v0 (ix4 a b c j) k = ix2 j k :=
  funext fun d => Fin.ext (by match d with | ⟨0, _⟩ => rfl | ⟨1, _⟩ => rfl)
/-- The bias spread over the pixels is read at the channel. -/
theorem bias1 (j : Fin 32) : idx_main_v1 (idx_main_v2 (ix4 a b c j)) = ix1 j :=
  funext fun d => Fin.ext (by match d with | ⟨0, _⟩ => rfl)

theorem in2 (j : Fin 32) (k : Fin 32) : lidx_main_v5 (ix4 a b c j) k = ix4 a b c k :=
  funext fun d => Fin.ext (by match d with | ⟨0, _⟩ => rfl | ⟨1, _⟩ => rfl | ⟨2, _⟩ => rfl | ⟨3, _⟩ => rfl)
theorem wt2 (j : Fin 32) (k : Fin 32) : ridx_main_v5 (ix4 a b c j) k = ix2 j k :=
  funext fun d => Fin.ext (by match d with | ⟨0, _⟩ => rfl | ⟨1, _⟩ => rfl)
theorem bias2 (j : Fin 32) : idx_main_v6 (idx_main_v7 (ix4 a b c j)) = ix1 j :=
  funext fun d => Fin.ext (by match d with | ⟨0, _⟩ => rfl)

theorem in3 (j : Fin 32) (k : Fin 32) : lidx_main_v10 (ix4 a b c j) k = ix4 a b c k :=
  funext fun d => Fin.ext (by match d with | ⟨0, _⟩ => rfl | ⟨1, _⟩ => rfl | ⟨2, _⟩ => rfl | ⟨3, _⟩ => rfl)
theorem wt3 (j : Fin 32) (k : Fin 32) : ridx_main_v10 (ix4 a b c j) k = ix2 j k :=
  funext fun d => Fin.ext (by match d with | ⟨0, _⟩ => rfl | ⟨1, _⟩ => rfl)
theorem bias3 (j : Fin 32) : idx_main_v11 (idx_main_v12 (ix4 a b c j)) = ix1 j :=
  funext fun d => Fin.ext (by match d with | ⟨0, _⟩ => rfl)

theorem in4 (o : Fin 2) (k : Fin 32) : lidx_main_v15 (ix4 a b c o) k = ix4 a b c k :=
  funext fun d => Fin.ext (by match d with | ⟨0, _⟩ => rfl | ⟨1, _⟩ => rfl | ⟨2, _⟩ => rfl | ⟨3, _⟩ => rfl)
theorem wt4 (o : Fin 2) (k : Fin 32) : ridx_main_v15 (ix4 a b c o) k = ix2 o k :=
  funext fun d => Fin.ext (by match d with | ⟨0, _⟩ => rfl | ⟨1, _⟩ => rfl)
theorem bias4 (o : Fin 2) : idx_main_v16 (idx_main_v17 (ix4 a b c o)) = ix1 o :=
  funext fun d => Fin.ext (by match d with | ⟨0, _⟩ => rfl)

/-! ## The layers -/

variable (x0 : FVec Ideal S8x512x512x5 .f32) (x1 : FVec Ideal S32x5 .f32) (x2 : FVec Ideal S32 .f32)
  (x3 : FVec Ideal S32x32 .f32) (x4 : FVec Ideal S32 .f32) (x5 : FVec Ideal S32x32 .f32) (x6 : FVec Ideal S32 .f32)
  (x7 : FVec Ideal S2x32 .f32) (x8 : FVec Ideal S2 .f32)

/-- After the first hyperbolic tangent the reference holds the first hidden layer of each pixel. -/
theorem layer1 (j : Fin 32) :
    val_main_v4 (F := Ideal) x0 x1 x2 (ix4 a b c j) = hidden (mat x1) (vec x2) (pixel x0 a b c) j := by
  rw [val_main_v4_apply, val_main_v3_apply, val_main_v0_apply, val_main_v2_apply, val_main_v1_apply]
  simp only [in1, wt1, bias1, Ideal.hostUnary_tanh_def, Ideal.addf_def]
  exact hidden_comm (mat x1) (vec x2) (pixel x0 a b c) j

/-- After the second, the second hidden layer. -/
theorem layer2 (j : Fin 32) :
    val_main_v9 (F := Ideal) x0 x1 x2 x3 x4 (ix4 a b c j)
      = hidden (mat x3) (vec x4) (hidden (mat x1) (vec x2) (pixel x0 a b c)) j := by
  rw [val_main_v9_apply, val_main_v8_apply, val_main_v5_apply, val_main_v7_apply, val_main_v6_apply]
  simp only [in2, wt2, bias2, layer1, Ideal.hostUnary_tanh_def, Ideal.addf_def]
  exact hidden_comm (mat x3) (vec x4) (hidden (mat x1) (vec x2) (pixel x0 a b c)) j

/-- After the third, the third hidden layer. -/
theorem layer3 (j : Fin 32) :
    val_main_v14 (F := Ideal) x0 x1 x2 x3 x4 x5 x6 (ix4 a b c j)
      = hidden (mat x5) (vec x6) (hidden (mat x3) (vec x4) (hidden (mat x1) (vec x2) (pixel x0 a b c))) j := by
  rw [val_main_v14_apply, val_main_v13_apply, val_main_v10_apply, val_main_v12_apply, val_main_v11_apply]
  simp only [in3, wt3, bias3, layer2, Ideal.hostUnary_tanh_def, Ideal.addf_def]
  exact hidden_comm (mat x5) (vec x6) (hidden (mat x3) (vec x4) (hidden (mat x1) (vec x2) (pixel x0 a b c))) j

/-- The reference's result is the perceptron's result array. -/
theorem reference_eq : val_main_v18 (F := Ideal) x0 x1 x2 x3 x4 x5 x6 x7 x8 = result x0 x1 x2 x3 x4 x5 x6 x7 x8 := by
  funext i
  obtain ⟨a, b, c, o, rfl⟩ : ∃ (a : Fin 8) (b c : Fin 512) (o : Fin 2), i = ix4 a b c o := ⟨i 0, i 1, i 2, i 3, eq_ix4 i⟩
  rw [val_main_v18_apply, val_main_v15_apply, val_main_v17_apply, val_main_v16_apply]
  simp only [in4, wt4, bias4, layer3, Ideal.addf_def]
  exact affine_comm (mat x7) (vec x8) (hidden (mat x5) (vec x6) (hidden (mat x3) (vec x4) (hidden (mat x1) (vec x2) (pixel x0 a b c)))) o

end Cert.ReferenceIdeal.RefValue

end
-- ==== Proof.BodyValue.lean ====
/-
  What one grid point of the kernel computes, read at an index.

  At a grid point the kernel holds a block of 32768 pixels with the channels along the first axis: entry `(k, q)` of the
  block is channel `k` of the block's pixel `q`. Each layer multiplies its weight matrix by the activations from the left,
  so entry `(j, q)` of the product is `Σ_k W (j, k) · h (k, q)`; the bias, kept as a column, is spread along the pixels and
  added, and the hidden layers apply the hyperbolic tangent. Column `q` of the block that the body stores is therefore the
  perceptron of `MlpSpec` applied to column `q` of the block it loaded.
-/
import proofs.«101100_j40149354283216_2_alg».proof.Proof.Gen.KernelIdeal.Skeleton
import proofs.«101100_j40149354283216_2_alg».proof.Proof.MlpSpec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.Mlp

/-! ## The matrix products -/

/-! ### The first layer's product: a 32 × 5 matrix times a 5 × 32768 block -/

theorem first_lhs0 (i : S32x32768.Idx) (q : dot_S32x5_S5x32768_S32x32768_1_0_0_1_n_n.contr.Idx) : (dot_S32x5_S5x32768_S32x32768_1_0_0_1_n_n.lhsIdx i q 0).val = (i 0).val := by
  unfold DotDims.lhsIdx
  rw [dif_neg (show ¬(0 : Fin S32x5.rank) ∈ dot_S32x5_S5x32768_S32x32768_1_0_0_1_n_n.lhsBatch by decide), dif_pos (show (0 : Fin S32x5.rank) ∈ dot_S32x5_S5x32768_S32x32768_1_0_0_1_n_n.lhsNonContracting by decide)]
  rfl
theorem first_lhs1 (i : S32x32768.Idx) (q : dot_S32x5_S5x32768_S32x32768_1_0_0_1_n_n.contr.Idx) : (dot_S32x5_S5x32768_S32x32768_1_0_0_1_n_n.lhsIdx i q 1).val = (q ⟨0, by decide⟩).val :=
  dot_S32x5_S5x32768_S32x32768_1_0_0_1_n_n.lhsIdx_val_of_single rfl i q
theorem first_rhs0 (i : S32x32768.Idx) (q : dot_S32x5_S5x32768_S32x32768_1_0_0_1_n_n.contr.Idx) : (dot_S32x5_S5x32768_S32x32768_1_0_0_1_n_n.rhsIdx i q 0).val = (q ⟨0, by decide⟩).val :=
  dot_S32x5_S5x32768_S32x32768_1_0_0_1_n_n.rhsIdx_val_of_single rfl i q
theorem first_rhs1 (i : S32x32768.Idx) (q : dot_S32x5_S5x32768_S32x32768_1_0_0_1_n_n.contr.Idx) : (dot_S32x5_S5x32768_S32x32768_1_0_0_1_n_n.rhsIdx i q 1).val = (i 1).val := by
  unfold DotDims.rhsIdx
  rw [dif_neg (show ¬(1 : Fin S5x32768.rank) ∈ dot_S32x5_S5x32768_S32x32768_1_0_0_1_n_n.rhsBatch by decide), dif_pos (show (1 : Fin S5x32768.rank) ∈ dot_S32x5_S5x32768_S32x32768_1_0_0_1_n_n.rhsNonContracting by decide)]
  rfl

/-- Accumulated into zero, entry `(j, q)` of the product is the sum over `k` of the left factor at `(j, k)` times the
    right factor at `(k, q)`. -/
theorem first_apply (w : FVec Ideal S32x5 .f32) (h : FVec Ideal S5x32768 .f32) (j : Fin 32) (q : Fin 32768) :
    matmul dot_S32x5_S5x32768_S32x32768_1_0_0_1_n_n (some .fp32) w h (constant (F := Ideal) S32x32768 .f32 0x00000000#32) (ix2 j q)
      = ∑ k : Fin 5, w (ix2 j k) * h (ix2 k q) := by
  simp only [matmul]
  rw [Ideal.matmul_constant_zero_apply, ← Equiv.sum_comp (contrEquiv1 dot_S32x5_S5x32768_S32x32768_1_0_0_1_n_n 5 rfl rfl).symm]
  refine Finset.sum_congr rfl fun k _ => ?_
  have hk := contrEquiv1_symm_val dot_S32x5_S5x32768_S32x32768_1_0_0_1_n_n 5 rfl rfl k
  have el : dot_S32x5_S5x32768_S32x32768_1_0_0_1_n_n.lhsIdx (ix2 j q) ((contrEquiv1 dot_S32x5_S5x32768_S32x32768_1_0_0_1_n_n 5 rfl rfl).symm k) = ix2 j k := funext fun a => Fin.ext (by
    match a with
    | ⟨0, _⟩ => exact first_lhs0 _ _
    | ⟨1, _⟩ => exact (first_lhs1 _ _).trans hk)
  have er : dot_S32x5_S5x32768_S32x32768_1_0_0_1_n_n.rhsIdx (ix2 j q) ((contrEquiv1 dot_S32x5_S5x32768_S32x32768_1_0_0_1_n_n 5 rfl rfl).symm k) = ix2 k q := funext fun a => Fin.ext (by
    match a with
    | ⟨0, _⟩ => exact (first_rhs0 _ _).trans hk
    | ⟨1, _⟩ => exact first_rhs1 _ _)
  rw [el, er]

/-! ### The second and third layers' product: a 32 × 32 matrix times a 32 × 32768 block -/

theorem mid_lhs0 (i : S32x32768.Idx) (q : dot_S32x32_S32x32768_S32x32768_1_0_0_1_n_n.contr.Idx) : (dot_S32x32_S32x32768_S32x32768_1_0_0_1_n_n.lhsIdx i q 0).val = (i 0).val := by
  unfold DotDims.lhsIdx
  rw [dif_neg (show ¬(0 : Fin S32x32.rank) ∈ dot_S32x32_S32x32768_S32x32768_1_0_0_1_n_n.lhsBatch by decide), dif_pos (show (0 : Fin S32x32.rank) ∈ dot_S32x32_S32x32768_S32x32768_1_0_0_1_n_n.lhsNonContracting by decide)]
  rfl
theorem mid_lhs1 (i : S32x32768.Idx) (q : dot_S32x32_S32x32768_S32x32768_1_0_0_1_n_n.contr.Idx) : (dot_S32x32_S32x32768_S32x32768_1_0_0_1_n_n.lhsIdx i q 1).val = (q ⟨0, by decide⟩).val :=
  dot_S32x32_S32x32768_S32x32768_1_0_0_1_n_n.lhsIdx_val_of_single rfl i q
theorem mid_rhs0 (i : S32x32768.Idx) (q : dot_S32x32_S32x32768_S32x32768_1_0_0_1_n_n.contr.Idx) : (dot_S32x32_S32x32768_S32x32768_1_0_0_1_n_n.rhsIdx i q 0).val = (q ⟨0, by decide⟩).val :=
  dot_S32x32_S32x32768_S32x32768_1_0_0_1_n_n.rhsIdx_val_of_single rfl i q
theorem mid_rhs1 (i : S32x32768.Idx) (q : dot_S32x32_S32x32768_S32x32768_1_0_0_1_n_n.contr.Idx) : (dot_S32x32_S32x32768_S32x32768_1_0_0_1_n_n.rhsIdx i q 1).val = (i 1).val := by
  unfold DotDims.rhsIdx
  rw [dif_neg (show ¬(1 : Fin S32x32768.rank) ∈ dot_S32x32_S32x32768_S32x32768_1_0_0_1_n_n.rhsBatch by decide), dif_pos (show (1 : Fin S32x32768.rank) ∈ dot_S32x32_S32x32768_S32x32768_1_0_0_1_n_n.rhsNonContracting by decide)]
  rfl

/-- Accumulated into zero, entry `(j, q)` of the product is the sum over `k` of the left factor at `(j, k)` times the
    right factor at `(k, q)`. -/
theorem mid_apply (w : FVec Ideal S32x32 .f32) (h : FVec Ideal S32x32768 .f32) (j : Fin 32) (q : Fin 32768) :
    matmul dot_S32x32_S32x32768_S32x32768_1_0_0_1_n_n (some .fp32) w h (constant (F := Ideal) S32x32768 .f32 0x00000000#32) (ix2 j q)
      = ∑ k : Fin 32, w (ix2 j k) * h (ix2 k q) := by
  simp only [matmul]
  rw [Ideal.matmul_constant_zero_apply, ← Equiv.sum_comp (contrEquiv1 dot_S32x32_S32x32768_S32x32768_1_0_0_1_n_n 32 rfl rfl).symm]
  refine Finset.sum_congr rfl fun k _ => ?_
  have hk := contrEquiv1_symm_val dot_S32x32_S32x32768_S32x32768_1_0_0_1_n_n 32 rfl rfl k
  have el : dot_S32x32_S32x32768_S32x32768_1_0_0_1_n_n.lhsIdx (ix2 j q) ((contrEquiv1 dot_S32x32_S32x32768_S32x32768_1_0_0_1_n_n 32 rfl rfl).symm k) = ix2 j k := funext fun a => Fin.ext (by
    match a with
    | ⟨0, _⟩ => exact mid_lhs0 _ _
    | ⟨1, _⟩ => exact (mid_lhs1 _ _).trans hk)
  have er : dot_S32x32_S32x32768_S32x32768_1_0_0_1_n_n.rhsIdx (ix2 j q) ((contrEquiv1 dot_S32x32_S32x32768_S32x32768_1_0_0_1_n_n 32 rfl rfl).symm k) = ix2 k q := funext fun a => Fin.ext (by
    match a with
    | ⟨0, _⟩ => exact (mid_rhs0 _ _).trans hk
    | ⟨1, _⟩ => exact mid_rhs1 _ _)
  rw [el, er]

/-! ### The output layer's product: a 2 × 32 matrix times a 32 × 32768 block -/

theorem last_lhs0 (i : S2x32768.Idx) (q : dot_S2x32_S32x32768_S2x32768_1_0_0_1_n_n.contr.Idx) : (dot_S2x32_S32x32768_S2x32768_1_0_0_1_n_n.lhsIdx i q 0).val = (i 0).val := by
  unfold DotDims.lhsIdx
  rw [dif_neg (show ¬(0 : Fin S2x32.rank) ∈ dot_S2x32_S32x32768_S2x32768_1_0_0_1_n_n.lhsBatch by decide), dif_pos (show (0 : Fin S2x32.rank) ∈ dot_S2x32_S32x32768_S2x32768_1_0_0_1_n_n.lhsNonContracting by decide)]
  rfl
theorem last_lhs1 (i : S2x32768.Idx) (q : dot_S2x32_S32x32768_S2x32768_1_0_0_1_n_n.contr.Idx) : (dot_S2x32_S32x32768_S2x32768_1_0_0_1_n_n.lhsIdx i q 1).val = (q ⟨0, by decide⟩).val :=
  dot_S2x32_S32x32768_S2x32768_1_0_0_1_n_n.lhsIdx_val_of_single rfl i q
theorem last_rhs0 (i : S2x32768.Idx) (q : dot_S2x32_S32x32768_S2x32768_1_0_0_1_n_n.contr.Idx) : (dot_S2x32_S32x32768_S2x32768_1_0_0_1_n_n.rhsIdx i q 0).val = (q ⟨0, by decide⟩).val :=
  dot_S2x32_S32x32768_S2x32768_1_0_0_1_n_n.rhsIdx_val_of_single rfl i q
theorem last_rhs1 (i : S2x32768.Idx) (q : dot_S2x32_S32x32768_S2x32768_1_0_0_1_n_n.contr.Idx) : (dot_S2x32_S32x32768_S2x32768_1_0_0_1_n_n.rhsIdx i q 1).val = (i 1).val := by
  unfold DotDims.rhsIdx
  rw [dif_neg (show ¬(1 : Fin S32x32768.rank) ∈ dot_S2x32_S32x32768_S2x32768_1_0_0_1_n_n.rhsBatch by decide), dif_pos (show (1 : Fin S32x32768.rank) ∈ dot_S2x32_S32x32768_S2x32768_1_0_0_1_n_n.rhsNonContracting by decide)]
  rfl

/-- Accumulated into zero, entry `(j, q)` of the product is the sum over `k` of the left factor at `(j, k)` times the
    right factor at `(k, q)`. -/
theorem last_apply (w : FVec Ideal S2x32 .f32) (h : FVec Ideal S32x32768 .f32) (j : Fin 2) (q : Fin 32768) :
    matmul dot_S2x32_S32x32768_S2x32768_1_0_0_1_n_n (some .fp32) w h (constant (F := Ideal) S2x32768 .f32 0x00000000#32) (ix2 j q)
      = ∑ k : Fin 32, w (ix2 j k) * h (ix2 k q) := by
  simp only [matmul]
  rw [Ideal.matmul_constant_zero_apply, ← Equiv.sum_comp (contrEquiv1 dot_S2x32_S32x32768_S2x32768_1_0_0_1_n_n 32 rfl rfl).symm]
  refine Finset.sum_congr rfl fun k _ => ?_
  have hk := contrEquiv1_symm_val dot_S2x32_S32x32768_S2x32768_1_0_0_1_n_n 32 rfl rfl k
  have el : dot_S2x32_S32x32768_S2x32768_1_0_0_1_n_n.lhsIdx (ix2 j q) ((contrEquiv1 dot_S2x32_S32x32768_S2x32768_1_0_0_1_n_n 32 rfl rfl).symm k) = ix2 j k := funext fun a => Fin.ext (by
    match a with
    | ⟨0, _⟩ => exact last_lhs0 _ _
    | ⟨1, _⟩ => exact (last_lhs1 _ _).trans hk)
  have er : dot_S2x32_S32x32768_S2x32768_1_0_0_1_n_n.rhsIdx (ix2 j q) ((contrEquiv1 dot_S2x32_S32x32768_S2x32768_1_0_0_1_n_n 32 rfl rfl).symm k) = ix2 k q := funext fun a => Fin.ext (by
    match a with
    | ⟨0, _⟩ => exact (last_rhs0 _ _).trans hk
    | ⟨1, _⟩ => exact last_rhs1 _ _)
  rw [el, er]

/-! ## The biases -/

/-- A bias column of height 32 spread along the pixels: entry `(j, q)` is the column's entry `j`. -/
theorem bias32_apply (v : FVec Ideal S32x1 .f32) (j : Fin 32) (q : Fin 32768) :
    broadcastTo S32x32768 v broadcasts_S32x1_S32x32768 (ix2 j q) = v (ix2 j 0) := by
  exact broadcastTo_apply v broadcasts_S32x1_S32x32768 (ix2 j q) (ix2 j 0) (fun a => by
    match a with
    | ⟨0, _⟩ => show j.val = if (32 : Nat) = 1 then 0 else j.val; rw [if_neg (by decide)]
    | ⟨1, _⟩ => show 0 = if (1 : Nat) = 1 then 0 else q.val; rw [if_pos rfl])

/-- The same for the output layer's bias column of height 2. -/
theorem bias2_apply (v : FVec Ideal S2x1 .f32) (o : Fin 2) (q : Fin 32768) :
    broadcastTo S2x32768 v broadcasts_S2x1_S2x32768 (ix2 o q) = v (ix2 o 0) := by
  exact broadcastTo_apply v broadcasts_S2x1_S2x32768 (ix2 o q) (ix2 o 0) (fun a => by
    match a with
    | ⟨0, _⟩ => show o.val = if (2 : Nat) = 1 then 0 else o.val; rw [if_neg (by decide)]
    | ⟨1, _⟩ => show 0 = if (1 : Nat) = 1 then 0 else q.val; rw [if_pos rfl])

/-! ## The layers at an index -/

/-- The first hidden layer of the block's pixel `q`. -/
theorem hidden_first (w : FVec Ideal S32x5 .f32) (bv : FVec Ideal S32x1 .f32) (h : FVec Ideal S5x32768 .f32) (j : Fin 32) (q : Fin 32768) :
    tanh (addf (matmul dot_S32x5_S5x32768_S32x32768_1_0_0_1_n_n (some .fp32) w h (constant (F := Ideal) S32x32768 .f32 0x00000000#32))
        (broadcastTo S32x32768 bv broadcasts_S32x1_S32x32768)) (ix2 j q)
      = hidden (mat w) (col bv) (fun k => h (ix2 k q)) j := by
  show Ideal.tanh (matmul dot_S32x5_S5x32768_S32x32768_1_0_0_1_n_n (some .fp32) w h (constant (F := Ideal) S32x32768 .f32 0x00000000#32) (ix2 j q)
      + broadcastTo S32x32768 bv broadcasts_S32x1_S32x32768 (ix2 j q)) = _
  rw [first_apply, bias32_apply]
  rfl

/-- A later hidden layer of the block's pixel `q`, from the layer before it. -/
theorem hidden_mid (w : FVec Ideal S32x32 .f32) (bv : FVec Ideal S32x1 .f32) (h : FVec Ideal S32x32768 .f32) (j : Fin 32) (q : Fin 32768) :
    tanh (addf (matmul dot_S32x32_S32x32768_S32x32768_1_0_0_1_n_n (some .fp32) w h (constant (F := Ideal) S32x32768 .f32 0x00000000#32))
        (broadcastTo S32x32768 bv broadcasts_S32x1_S32x32768)) (ix2 j q)
      = hidden (mat w) (col bv) (fun k => h (ix2 k q)) j := by
  show Ideal.tanh (matmul dot_S32x32_S32x32768_S32x32768_1_0_0_1_n_n (some .fp32) w h (constant (F := Ideal) S32x32768 .f32 0x00000000#32) (ix2 j q)
      + broadcastTo S32x32768 bv broadcasts_S32x1_S32x32768 (ix2 j q)) = _
  rw [mid_apply, bias32_apply]
  rfl

/-- The output layer of the block's pixel `q`, from the last hidden layer. -/
theorem affine_last (w : FVec Ideal S2x32 .f32) (bv : FVec Ideal S2x1 .f32) (h : FVec Ideal S32x32768 .f32) (o : Fin 2) (q : Fin 32768) :
    addf (matmul dot_S2x32_S32x32768_S2x32768_1_0_0_1_n_n (some .fp32) w h (constant (F := Ideal) S2x32768 .f32 0x00000000#32))
        (broadcastTo S2x32768 bv broadcasts_S2x1_S2x32768) (ix2 o q)
      = affine (mat w) (col bv) (fun k => h (ix2 k q)) o := by
  show matmul dot_S2x32_S32x32768_S2x32768_1_0_0_1_n_n (some .fp32) w h (constant (F := Ideal) S2x32768 .f32 0x00000000#32) (ix2 o q)
      + broadcastTo S2x32768 bv broadcasts_S2x1_S2x32768 (ix2 o q) = _
  rw [last_apply, bias2_apply]
  rfl

/-! ## The stored block -/

/-- Entry `(o, q)` of the block the body stores is output `o` of the perceptron at the block's pixel `q`: the weights
    are the loaded matrices, the biases the loaded columns, the input the column `q` of the loaded block of pixels. -/
theorem payload_apply (v0 : Vec Ideal S5x32768 .f32) (v2 : Vec Ideal S32x5 .f32) (v3 : Vec Ideal S32x1 .f32)
    (v9 : Vec Ideal S32x32 .f32) (v10 : Vec Ideal S32x1 .f32) (v16 : Vec Ideal S32x32 .f32) (v17 : Vec Ideal S32x1 .f32)
    (v23 : Vec Ideal S2x32 .f32) (v24 : Vec Ideal S2x1 .f32) (o : Fin 2) (q : Fin 32768) :
    k0_pay1 (F := Ideal) v0 v2 v3 v9 v10 v16 v17 v23 v24 (ix2 o q)
      = net (mat v2) (col v3) (mat v9) (col v10) (mat v16) (col v17) (mat v23) (col v24) (fun k => v0 (ix2 k q)) o := by
  unfold k0_pay1
  simp only [affine_last, hidden_mid, hidden_first, shapeCast_self]
  rfl

end Cert.KernelIdeal.Body

end
-- ==== Proof.KernelBlocks.lean ====
/-
  The array the kernel's region leaves behind, as one function of the arrays it is given.

  The region walks 64 grid points. At point `t` it is given pixels `32768 · t … 32768 · t + 32767` of the image laid out with
  the channels on the first axis (a 5 × 32768 block), and every weight matrix and bias column whole; it stores a 2 × 32768
  block, which is written back to columns `32768 · t …` of the 2 × 2097152 result. By `BodyValue`, column `q` of the stored
  block is the perceptron applied to column `q` of the block of pixels, that is, to pixel number `32768 · t + q`. The 64
  blocks tile the result, so entry `(o, n)` of the result is output `o` of the perceptron at pixel number `n`.
-/
import proofs.«101100_j40149354283216_2_alg».proof.Proof.Gen.KernelIdeal.Frame
import proofs.«101100_j40149354283216_2_alg».proof.Proof.BodyValue
import proofs.«101100_j40149354283216_2_alg».proof.Proof.MlpSpec
import Idealize.ShloMosaic.Lib.Pipeline.Value
import Idealize.ShloMosaic.Lib.ValueIdx
import Idealize.ShloMosaic.PureOps.Ideal

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx Cert.Mlp
open Idealize.ShloMosaic.Pipeline (Dat)

variable (m : (ℓ : Loc nD τ sig) → Buf (Elt Ideal) ℓ)

theorem zero_offsets : (![0, 0] : Fin 2 → Nat) = fun _ => 0 := funext fun a => by fin_cases a <;> rfl

/-- Entry `(o, n)` is output `o` of the perceptron at pixel number `n`: the input is column `n` of the array of pixels,
    the weights are the matrices and the biases the columns. -/
def perPixel (xt : S5x2097152.Idx → EReal) (w1 : S32x5.Idx → EReal) (b1 : S32x1.Idx → EReal) (w2 : S32x32.Idx → EReal)
    (b2 : S32x1.Idx → EReal) (w3 : S32x32.Idx → EReal) (b3 : S32x1.Idx → EReal) (w4 : S2x32.Idx → EReal)
    (b4 : S2x1.Idx → EReal) : S2x2097152.Idx → EReal :=
  fun i => net (mat w1) (col b1) (mat w2) (col b2) (mat w3) (col b3) (mat w4) (col b4) (fun k => xt (ix2 k (i 1))) (i 0)

/-- That function of the arrays as the region finds them. -/
abbrev regionOut (c : Dev nD) : S2x2097152.Idx → EReal :=
  perPixel (V m c main_v1) (V m c main_arg1) (V m c main_v2) (V m c main_arg3) (V m c main_v3) (V m c main_arg5)
    (V m c main_v4) (V m c main_arg7) (V m c main_v5)

/-! ## Where the blocks sit -/

/-- The index maps over the grid: the block of pixels and the stored block are at block column `t` of their arrays, and
    every weight and bias block is at the origin. -/
theorem idx_facts : ∀ t : Fin cfg0.N, win0_0.index t (0 : Fin 2) = 0
    ∧ win0_0.index t (1 : Fin 2) = t.val
    ∧ win0_9.index t (0 : Fin 2) = 0
    ∧ win0_9.index t (1 : Fin 2) = t.val
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Column `q` of the block of pixels at point `t` is column `32768 · t + q` of the array of pixels. -/
theorem pixels_block (c : Dev nD) (t : Fin cfg0.N) (k : Fin 5) (q : Fin 32768) (n : Fin 2097152)
    (hn : n.val = t.val * 32768 + q.val) :
    (iblk m c 0 t : S5x32768.Idx → EReal) (ix2 k q) = (V m c main_v1 : S5x2097152.Idx → EReal) (ix2 k n) := by
  obtain ⟨p0, p1, o0, o1, e10, e11, e20, e21, e30, e31, e40, e41, e50, e51, e60, e61, e70, e71, e80, e81⟩ := idx_facts t
  unfold iblk
  rw [View.read_apply]
  refine congrArg (V m c main_v1 : S5x2097152.Idx → EReal) (funext fun a => Fin.ext ?_)
  match a with
  | ⟨0, _⟩ => show win0_0.index t (0 : Fin 2) * 5 + 1 * k.val = k.val; rw [p0]; omega
  | ⟨1, _⟩ => show win0_0.index t (1 : Fin 2) * 32768 + 1 * q.val = n.val; rw [p1, hn]; omega

/-- Window 1's block is the whole of its array at every point. -/
theorem whole1 (c : Dev nD) (t : Fin cfg0.N) : (iblk m c 1 t : S32x5.Idx → EReal) = (V m c main_arg1 : S32x5.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_arg1 : S32x5.Idx → EReal) (funext fun a => Fin.ext ?_)
  match a with
  | ⟨0, _⟩ => show win0_1.index t (0 : Fin 2) * 32 + 1 * (y 0).val = (y 0).val; rw [e10]; omega
  | ⟨1, _⟩ => show win0_1.index t (1 : Fin 2) * 5 + 1 * (y 1).val = (y 1).val; rw [e11]; omega

/-- Window 2's block is the whole of its array at every point. -/
theorem whole2 (c : Dev nD) (t : Fin cfg0.N) : (iblk m c 2 t : S32x1.Idx → EReal) = (V m c main_v2 : S32x1.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_v2 : S32x1.Idx → EReal) (funext fun a => Fin.ext ?_)
  match a with
  | ⟨0, _⟩ => show win0_2.index t (0 : Fin 2) * 32 + 1 * (y 0).val = (y 0).val; rw [e20]; omega
  | ⟨1, _⟩ => show win0_2.index t (1 : Fin 2) * 1 + 1 * (y 1).val = (y 1).val; rw [e21]; omega

/-- Window 3's block is the whole of its array at every point. -/
theorem whole3 (c : Dev nD) (t : Fin cfg0.N) : (iblk m c 3 t : S32x32.Idx → EReal) = (V m c main_arg3 : S32x32.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_arg3 : S32x32.Idx → EReal) (funext fun a => Fin.ext ?_)
  match a with
  | ⟨0, _⟩ => show win0_3.index t (0 : Fin 2) * 32 + 1 * (y 0).val = (y 0).val; rw [e30]; omega
  | ⟨1, _⟩ => show win0_3.index t (1 : Fin 2) * 32 + 1 * (y 1).val = (y 1).val; rw [e31]; omega

/-- Window 4's block is the whole of its array at every point. -/
theorem whole4 (c : Dev nD) (t : Fin cfg0.N) : (iblk m c 4 t : S32x1.Idx → EReal) = (V m c main_v3 : S32x1.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_v3 : S32x1.Idx → EReal) (funext fun a => Fin.ext ?_)
  match a with
  | ⟨0, _⟩ => show win0_4.index t (0 : Fin 2) * 32 + 1 * (y 0).val = (y 0).val; rw [e40]; omega
  | ⟨1, _⟩ => show win0_4.index t (1 : Fin 2) * 1 + 1 * (y 1).val = (y 1).val; rw [e41]; omega

/-- Window 5's block is the whole of its array at every point. -/
theorem whole5 (c : Dev nD) (t : Fin cfg0.N) : (iblk m c 5 t : S32x32.Idx → EReal) = (V m c main_arg5 : S32x32.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_arg5 : S32x32.Idx → EReal) (funext fun a => Fin.ext ?_)
  match a with
  | ⟨0, _⟩ => show win0_5.index t (0 : Fin 2) * 32 + 1 * (y 0).val = (y 0).val; rw [e50]; omega
  | ⟨1, _⟩ => show win0_5.index t (1 : Fin 2) * 32 + 1 * (y 1).val = (y 1).val; rw [e51]; omega

/-- Window 6's block is the whole of its array at every point. -/
theorem whole6 (c : Dev nD) (t : Fin cfg0.N) : (iblk m c 6 t : S32x1.Idx → EReal) = (V m c main_v4 : S32x1.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_v4 : S32x1.Idx → EReal) (funext fun a => Fin.ext ?_)
  match a with
  | ⟨0, _⟩ => show win0_6.index t (0 : Fin 2) * 32 + 1 * (y 0).val = (y 0).val; rw [e60]; omega
  | ⟨1, _⟩ => show win0_6.index t (1 : Fin 2) * 1 + 1 * (y 1).val = (y 1).val; rw [e61]; omega

/-- Window 7's block is the whole of its array at every point. -/
theorem whole7 (c : Dev nD) (t : Fin cfg0.N) : (iblk m c 7 t : S2x32.Idx → EReal) = (V m c main_arg7 : S2x32.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_arg7 : S2x32.Idx → EReal) (funext fun a => Fin.ext ?_)
  match a with
  | ⟨0, _⟩ => show win0_7.index t (0 : Fin 2) * 2 + 1 * (y 0).val = (y 0).val; rw [e70]; omega
  | ⟨1, _⟩ => show win0_7.index t (1 : Fin 2) * 32 + 1 * (y 1).val = (y 1).val; rw [e71]; omega

/-- Window 8's block is the whole of its array at every point. -/
theorem whole8 (c : Dev nD) (t : Fin cfg0.N) : (iblk m c 8 t : S2x1.Idx → EReal) = (V m c main_v5 : S2x1.Idx → EReal) := by
  obtain ⟨p0, p1, o0, o1, e10, e11, e20, e21, e30, e31, e40, e41, e50, e51, e60, e61, e70, e71, e80, e81⟩ := idx_facts t
  funext y
  unfold iblk
  rw [View.read_apply]
  refine congrArg (V m c main_v5 : S2x1.Idx → EReal) (funext fun a => Fin.ext ?_)
  match a with
  | ⟨0, _⟩ => show win0_8.index t (0 : Fin 2) * 2 + 1 * (y 0).val = (y 0).val; rw [e80]; omega
  | ⟨1, _⟩ => show win0_8.index t (1 : Fin 2) * 1 + 1 * (y 1).val = (y 1).val; rw [e81]; omega

/-! ## What a point writes back -/

/-- Point `t` writes back block `t` of `regionOut`. -/
theorem flushed_eq (c : Dev nD) (t : Fin cfg0.N) :
    (dats m 0 c).flushed 9 t = ((cfg0.win 9).blk t).view.read (Elt Ideal) (regionOut m c) := by
  show (cfg0.win 9).cut (grid0.coords t) ((dats m 0 c).after 9 t) = _
  rw [after0_9]
  unfold out0_9
  rw [View.canon_unit_zero zero_offsets]
  simp only [View.ld_unit_zero (S := S5x32768) zero_offsets, View.ld_unit_zero (S := S32x5) zero_offsets,
    View.ld_unit_zero (S := S32x1) zero_offsets, View.ld_unit_zero (S := S32x32) zero_offsets,
    View.ld_unit_zero (S := S2x32) zero_offsets, View.ld_unit_zero (S := S2x1) zero_offsets]
  funext y
  obtain ⟨o, q, rfl⟩ : ∃ (o : Fin 2) (q : Fin 32768), y = ix2 o q := ⟨y 0, y 1, eq_ix2 y⟩
  have hN : cfg0.N = 64 := N_0
  have hlt : t.val * 32768 + q.val < 2097152 := by have := t.isLt; have := q.isLt; omega
  obtain ⟨p0, p1, o0, o1, e10, e11, e20, e21, e30, e31, e40, e41, e50, e51, e60, e61, e70, e71, e80, e81⟩ := idx_facts t
  have hemb : ((cfg0.win 9).blk t).view.emb (ix2 o q) = ix2 o (⟨t.val * 32768 + q.val, hlt⟩ : Fin 2097152) :=
    funext fun a => Fin.ext (by
      match a with
      | ⟨0, _⟩ => show win0_9.index t (0 : Fin 2) * 2 + 1 * o.val = o.val; rw [o0]; omega
      | ⟨1, _⟩ => show win0_9.index t (1 : Fin 2) * 32768 + 1 * q.val = t.val * 32768 + q.val; rw [o1]; omega)
  show k0_pay1 (iblk m c 0 t) (iblk m c 1 t) (iblk m c 2 t) (iblk m c 3 t) (iblk m c 4 t) (iblk m c 5 t) (iblk m c 6 t)
      (iblk m c 7 t) (iblk m c 8 t) (ix2 o q) = regionOut m c (((cfg0.win 9).blk t).view.emb (ix2 o q))
  rw [hemb]
  refine (Body.payload_apply (iblk m c 0 t) (iblk m c 1 t) (iblk m c 2 t) (iblk m c 3 t) (iblk m c 4 t) (iblk m c 5 t)
    (iblk m c 6 t) (iblk m c 7 t) (iblk m c 8 t) o q).trans ?_
  have hx : (fun k : Fin 5 => (iblk m c 0 t : S5x32768.Idx → EReal) (ix2 k q))
      = fun k : Fin 5 => (V m c main_v1 : S5x2097152.Idx → EReal) (ix2 k (⟨t.val * 32768 + q.val, hlt⟩ : Fin 2097152)) :=
    funext fun k => pixels_block m c t k q _ rfl
  rw [whole1 m c t, whole2 m c t, whole3 m c t, whole4 m c t, whole5 m c t, whole6 m c t, whole7 m c t, whole8 m c t, hx]
  rfl

/-! ## The blocks tile the result -/

/-- An index is in point `t`'s block iff each of its coordinates is in the block's range. -/
theorem mem_blk (t : Fin cfg0.N) (i : S2x2097152.Idx) :
    i ∈ ((cfg0.win 9).blk t).view.set ↔ ∀ a : Fin 2, win0_9.index t a * S2x32768.size a ≤ (i a).val
      ∧ (i a).val < win0_9.index t a * S2x32768.size a + S2x32768.size a := by
  show i ∈ ((View.whole main_v6).slice (win0_9.rect t)).set ↔ _
  rw [View.set_slice_whole, Rect.mem_set_unit]
  exact Iff.rfl

/-- Column `n` of the result is written back by point `n / 32768`. -/
theorem cover (i : S2x2097152.Idx) :
    ∃ t : Fin cfg0.N, (cfg0.win 9).flush t = true ∧ i ∈ ((cfg0.win 9).blk t).view.set := by
  have hN : cfg0.N = 64 := N_0
  have h0 : (i 0).val < 2 := (i 0).isLt
  have h1 : (i 1).val < 2097152 := (i 1).isLt
  obtain ⟨t, ht⟩ : ∃ t : Fin cfg0.N, t.val = (i 1).val / 32768 := ⟨⟨(i 1).val / 32768, by omega⟩, rfl⟩
  obtain ⟨p0, p1, o0, o1, e10, e11, e20, e21, e30, e31, e40, e41, e50, e51, e60, e61, e70, e71, e80, e81⟩ := idx_facts t
  refine ⟨t, flush0_9 t, ?_⟩
  rw [mem_blk]
  intro a
  match a with
  | ⟨0, _⟩ => show win0_9.index t (0 : Fin 2) * 2 ≤ (i 0).val ∧ (i 0).val < win0_9.index t (0 : Fin 2) * 2 + 2; rw [o0]; omega
  | ⟨1, _⟩ => show win0_9.index t (1 : Fin 2) * 32768 ≤ (i 1).val ∧ (i 1).val < win0_9.index t (1 : Fin 2) * 32768 + 32768; rw [o1]; omega

/-- The result array after the region is `regionOut`. -/
theorem region_result (c : Dev nD) : (dats m 0 c).arrAt 9 cfg0.N = regionOut m c :=
  (dats m 0 c).arrAt_eq_of_cover 9 (regionOut m c) (fun t _ => flushed_eq m c t) (cover)

end Cert.KernelIdeal.Blocks

end
-- ==== Proof.PixelLayout.lean ====
/-
  How the pixels of the image are numbered when the image is laid out with the pixels along one axis.

  The image has 8 × 512 × 512 pixels, each with a few channels. Flattening the first three axes numbers the pixel in
  image `a`, row `b`, column `c` as `a · 512 · 512 + b · 512 + c`; transposing the flattened array puts the channels on the
  first axis and the pixel number on the second. So entry `(k, n)` of the transposed array is channel `k` of pixel number
  `n`, and, read backwards, the entry of a result at `(a, b, c, o)` comes from entry `(o, n)` of the array that was
  transposed and unflattened. A bias vector reshaped to one column keeps entry `j` at `(j, 0)`.
-/
import Idealize.ShloMosaic.Lib.Pipeline.Value
import Idealize.ShloMosaic.Lib.ValueIdx

noncomputable section

namespace Cert.Layout

open Idealize.ShloMosaic Idealize.ShloMosaic.ValueIdx

/-- The number of the pixel in image `a`, row `b`, column `c`. -/
def pix (a : Fin 8) (b c : Fin 512) : Fin 2097152 :=
  ⟨a.val * 262144 + b.val * 512 + c.val, by have := a.isLt; have := b.isLt; have := c.isLt; omega⟩

theorem pix_val (a : Fin 8) (b c : Fin 512) : (pix a b c).val = a.val * 262144 + b.val * 512 + c.val := rfl

/-- The image flattened over its pixels and transposed, at channel `k` and the number of pixel `(a, b, c)`, is the image at
    that pixel and channel. -/
theorem to_pixels {α : Type} (X : (⟨4, ![8, 512, 512, 5]⟩ : Shape).Idx → α)
    (hs : (⟨4, ![8, 512, 512, 5]⟩ : Shape).ShapeCasts ⟨2, ![2097152, 5]⟩)
    (ht : (⟨2, ![2097152, 5]⟩ : Shape).Transposes [1, 0] ⟨2, ![5, 2097152]⟩)
    (a : Fin 8) (b c : Fin 512) (k : Fin 5) :
    transpose ⟨2, ![5, 2097152]⟩ [1, 0] (shapeCast ⟨2, ![2097152, 5]⟩ X hs) ht (ix2 k (pix a b c)) = X (ix4 a b c k) := by
  refine (transpose_apply [1, 0] _ ht (ix2 k (pix a b c)) (ix2 (pix a b c) k) (fun d => by
    match d with
    | ⟨0, _⟩ => rfl
    | ⟨1, _⟩ => rfl)).trans ?_
  refine shapeCast_apply X hs (ix2 (pix a b c) k) (ix4 a b c k) ?_
  rw [Shape.rowMajor_val_four, Shape.rowMajor_val_two]
  show ((a.val * 512 + b.val) * 512 + c.val) * 5 + k.val = (a.val * 262144 + b.val * 512 + c.val) * 5 + k.val
  omega

/-- An array with two rows and one column per pixel, transposed and unflattened into an image with two channels: the
    image at pixel `(a, b, c)` and channel `o` is the array at row `o` and that pixel's number. -/
theorem from_pixels {α : Type} (Y : (⟨2, ![2, 2097152]⟩ : Shape).Idx → α)
    (ht : (⟨2, ![2, 2097152]⟩ : Shape).Transposes [1, 0] ⟨2, ![2097152, 2]⟩)
    (hs : (⟨2, ![2097152, 2]⟩ : Shape).ShapeCasts ⟨4, ![8, 512, 512, 2]⟩)
    (a : Fin 8) (b c : Fin 512) (o : Fin 2) :
    shapeCast ⟨4, ![8, 512, 512, 2]⟩ (transpose ⟨2, ![2097152, 2]⟩ [1, 0] Y ht) hs (ix4 a b c o) = Y (ix2 o (pix a b c)) := by
  refine (shapeCast_apply _ hs (ix4 a b c o) (ix2 (pix a b c) o) ?_).trans ?_
  · rw [Shape.rowMajor_val_four, Shape.rowMajor_val_two]
    show (a.val * 262144 + b.val * 512 + c.val) * 2 + o.val = ((a.val * 512 + b.val) * 512 + c.val) * 2 + o.val
    omega
  · exact transpose_apply [1, 0] Y ht (ix2 (pix a b c) o) (ix2 o (pix a b c)) (fun d => by
      match d with
      | ⟨0, _⟩ => rfl
      | ⟨1, _⟩ => rfl)

/-- A vector reshaped to one column: the column's entry `(j, 0)` is the vector's entry `j`. -/
theorem col_of_vec {α : Type} {J : Nat} (v : (⟨1, ![J]⟩ : Shape).Idx → α)
    (h : (⟨1, ![J]⟩ : Shape).ShapeCasts ⟨2, ![J, 1]⟩) (j : Fin J) :
    shapeCast ⟨2, ![J, 1]⟩ v h (ix2 j 0) = v (ix1 j) := by
  refine shapeCast_apply v h (ix2 j 0) (ix1 j) ?_
  rw [Shape.rowMajor_val_one, Shape.rowMajor_val_two]
  show j.val = j.val * 1 + 0
  omega

end Cert.Layout

end
-- ==== Proof.KernelWhole.lean ====
/-
  The kernel's program from its arguments to its result.

  Before the region the program flattens the image over its pixels and transposes it, so that the region is given the
  channels on the first axis and the pixel number on the second, and it reshapes each bias vector to a column. The region
  leaves, at `(o, n)`, output `o` of the perceptron at pixel number `n` (`KernelBlocks`). After the region the program
  transposes that array and unflattens the pixel axis. Read through the pixel numbering of `PixelLayout`, the result at
  image `a`, row `b`, column `c` and channel `o` is output `o` of the perceptron applied to the channels of that pixel of
  the argument image, with the argument matrices as weights and the argument vectors as biases: `Mlp.result`.
-/
import proofs.«101100_j40149354283216_2_alg».proof.Proof.Gen.KernelIdeal.Frame
import proofs.«101100_j40149354283216_2_alg».proof.Proof.KernelBlocks
import proofs.«101100_j40149354283216_2_alg».proof.Proof.PixelLayout
import proofs.«101100_j40149354283216_2_alg».proof.Proof.MlpSpec
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Mlp Cert.Layout Cert.KernelIdeal.Blocks
open Idealize.ShloMosaic.Pipeline (Dat)

variable (m : (ℓ : Loc nD τ sig) → Buf (Elt Ideal) ℓ) (ρ : Dev nD → PrngReg)

/-! ## What the region is given -/

/-- The array of pixels is the argument image flattened over its pixels and transposed. -/
theorem pixels_given (c : Dev nD) : (V m c main_v1 : S5x2097152.Idx → EReal)
    = transpose S5x2097152 [1, 0] (shapeCast S2097152x5 ((m ((c : Thread nD τ).loc main_arg0)) : S8x512x512x5.Idx → EReal)
        shapeCasts_S8x512x512x5_S2097152x5) transposes_S2097152x5_S5x2097152_1_0 := by
  show StableHlo.after hostOps0 (fun b => m (c, b)) (Proc.devRef .tc main_v1) = _
  after_results
  rfl

/-- The first layer's bias column is its argument vector reshaped. -/
theorem bias1_given (c : Dev nD) : (V m c main_v2 : S32x1.Idx → EReal)
    = shapeCast S32x1 ((m ((c : Thread nD τ).loc main_arg2)) : S32.Idx → EReal) shapeCasts_S32_S32x1 := by
  show StableHlo.after hostOps0 (fun b => m (c, b)) (Proc.devRef .tc main_v2) = _
  after_results
  rfl

/-- The second layer's bias column is its argument vector reshaped. -/
theorem bias2_given (c : Dev nD) : (V m c main_v3 : S32x1.Idx → EReal)
    = shapeCast S32x1 ((m ((c : Thread nD τ).loc main_arg4)) : S32.Idx → EReal) shapeCasts_S32_S32x1 := by
  show StableHlo.after hostOps0 (fun b => m (c, b)) (Proc.devRef .tc main_v3) = _
  after_results
  rfl

/-- The third layer's bias column is its argument vector reshaped. -/
theorem bias3_given (c : Dev nD) : (V m c main_v4 : S32x1.Idx → EReal)
    = shapeCast S32x1 ((m ((c : Thread nD τ).loc main_arg6)) : S32.Idx → EReal) shapeCasts_S32_S32x1 := by
  show StableHlo.after hostOps0 (fun b => m (c, b)) (Proc.devRef .tc main_v4) = _
  after_results
  rfl

/-- The output layer's bias column is its argument vector reshaped. -/
theorem bias4_given (c : Dev nD) : (V m c main_v5 : S2x1.Idx → EReal)
    = shapeCast S2x1 ((m ((c : Thread nD τ).loc main_arg8)) : S2.Idx → EReal) shapeCasts_S2_S2x1 := by
  show StableHlo.after hostOps0 (fun b => m (c, b)) (Proc.devRef .tc main_v5) = _
  after_results
  rfl

/-- Column `pix a b c` of the array of pixels is the channels of pixel `(a, b, c)` of the argument image. -/
theorem input_eq (c : Dev nD) (a : Fin 8) (b c' : Fin 512) :
    (fun k : Fin 5 => (V m c main_v1 : S5x2097152.Idx → EReal) (ix2 k (pix a b c'))) = pixel (m ((c : Thread nD τ).loc main_arg0)) a b c' :=
  funext fun k => by
    rw [pixels_given]
    exact to_pixels _ _ _ a b c' k

theorem bias1_eq (c : Dev nD) : col (V m c main_v2 : S32x1.Idx → EReal) = vec (m ((c : Thread nD τ).loc main_arg2)) :=
  funext fun j => by
    rw [bias1_given]
    exact col_of_vec _ _ j

theorem bias2_eq (c : Dev nD) : col (V m c main_v3 : S32x1.Idx → EReal) = vec (m ((c : Thread nD τ).loc main_arg4)) :=
  funext fun j => by
    rw [bias2_given]
    exact col_of_vec _ _ j

theorem bias3_eq (c : Dev nD) : col (V m c main_v4 : S32x1.Idx → EReal) = vec (m ((c : Thread nD τ).loc main_arg6)) :=
  funext fun j => by
    rw [bias3_given]
    exact col_of_vec _ _ j

theorem bias4_eq (c : Dev nD) : col (V m c main_v5 : S2x1.Idx → EReal) = vec (m ((c : Thread nD τ).loc main_arg8)) :=
  funext fun j => by
    rw [bias4_given]
    exact col_of_vec _ _ j

/-! ## The result -/

theorem perPixel_apply (xt : S5x2097152.Idx → EReal) (w1 : S32x5.Idx → EReal) (b1 : S32x1.Idx → EReal) (w2 : S32x32.Idx → EReal)
    (b2 : S32x1.Idx → EReal) (w3 : S32x32.Idx → EReal) (b3 : S32x1.Idx → EReal) (w4 : S2x32.Idx → EReal)
    (b4 : S2x1.Idx → EReal) (o : Fin 2) (n : Fin 2097152) :
    perPixel xt w1 b1 w2 b2 w3 b3 w4 b4 (ix2 o n)
      = net (mat w1) (col b1) (mat w2) (col b2) (mat w3) (col b3) (mat w4) (col b4) (fun k => xt (ix2 k n)) o := rfl

theorem result_apply (X : S8x512x512x5.Idx → EReal) (W1 : S32x5.Idx → EReal) (B1 : S32.Idx → EReal) (W2 : S32x32.Idx → EReal)
    (B2 : S32.Idx → EReal) (W3 : S32x32.Idx → EReal) (B3 : S32.Idx → EReal) (W4 : S2x32.Idx → EReal) (B4 : S2.Idx → EReal)
    (a : Fin 8) (b c : Fin 512) (o : Fin 2) :
    result X W1 B1 W2 B2 W3 B3 W4 B4 (ix4 a b c o)
      = net (mat W1) (vec B1) (mat W2) (vec B2) (mat W3) (vec B3) (mat W4) (vec B4) (pixel X a b c) o := rfl

/-- After the region the program transposes the region's array and unflattens its pixel axis. -/
theorem tail_eq (c : Dev nD) :
    (Pipeline.afterTail₀ cfgs (dats m) 0 (V0 m) [hostOps1] c main_v8 : S8x512x512x2.Idx → EReal)
      = shapeCast S8x512x512x2 (transpose S2097152x2 [1, 0] (regionOut m c) transposes_S2x2097152_S2097152x2_1_0)
          shapeCasts_S2097152x2_S8x512x512x2 := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v6)
      = regionOut m c :=
    (Pipeline.withArrays_arr spec0 launch0.win.arr_inj c _ _ 9).trans (region_result m c)
  rw [e]
  rfl

/-- The program's result is the perceptron's result array of its arguments. -/
theorem value (c : Dev nD) :
    (Pipeline.afterTail₀ cfgs (dats m) 0 (V0 m) [hostOps1] c main_v8 : S8x512x512x2.Idx → EReal)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [tail_eq]
  funext i
  obtain ⟨a, b, c', o, rfl⟩ : ∃ (a : Fin 8) (b c' : Fin 512) (o : Fin 2), i = ix4 a b c' o := ⟨i 0, i 1, i 2, i 3, eq_ix4 i⟩
  refine (from_pixels (regionOut m c) _ _ a b c' o).trans ?_
  unfold regionOut
  rw [perPixel_apply, result_apply, input_eq m c a b c', bias1_eq m c, bias2_eq m c, bias3_eq m c, bias4_eq m c,
    V_main_arg1, V_main_arg3, V_main_arg5, V_main_arg7]

/-! ## The run -/

/-- Every execution of the program ends with its result at the perceptron's result array of its arguments and its
    arguments unchanged. -/
theorem run : θ_run defs (onTc (τ := τ) (main (F := Ideal))) ⟨m, fun _ => 0, ρ⟩ fun r => ∀ c : Dev nD,
      r.2.mem ((c.tc : Thread nD τ).loc main_v8) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).2 main_v8 (Pipeline.mem_restRefs_of main_v8 (by decide) (by decide))).trans (value m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 3).trans (((dats m 0 c).arrAt_in 3 rfl _).trans ((A_eq m c 3).trans (V_main_arg3 m c))),
      (((h c).2 main_arg4 (Pipeline.mem_restRefs_of main_arg4 (by decide) (by decide))).trans (W_main_arg4 m (dats m) c)),
      ((h c).1 5).trans (((dats m 0 c).arrAt_in 5 rfl _).trans ((A_eq m c 5).trans (V_main_arg5 m c))),
      (((h c).2 main_arg6 (Pipeline.mem_restRefs_of main_arg6 (by decide) (by decide))).trans (W_main_arg6 m (dats m) c)),
      ((h c).1 7).trans (((dats m 0 c).arrAt_in 7 rfl _).trans ((A_eq m c 7).trans (V_main_arg7 m c))),
      (((h c).2 main_arg8 (Pipeline.mem_restRefs_of main_arg8 (by decide) (by decide))).trans (W_main_arg8 m (dats m) c))⟩)
    (run_main m ρ)

end Cert.KernelIdeal.Whole

end
-- ==== Proof.Claims.lean ====
/-
  The five claims.

  Both programs apply one perceptron of four layers to every pixel of an image: three hidden layers of width 32 with the
  hyperbolic tangent and an affine output layer of width 2. The kernel lays the pixels along the last axis and multiplies
  each weight matrix by the activations from the left; the reference keeps the image's own layout and contracts the
  channel axis against the weight matrix's second axis. At the extended reals the two results are the same array: each
  entry is a sum over the same channels of the same two factors in the other order, and multiplication of extended reals
  is commutative, at the infinities too. No input needs to be finite for that, and the precondition is not used.

  The kernel's side is `KernelWhole.run`: its result is `Mlp.result` of its arguments. The reference's side is its run
  with the result read one operation at a time, and `RefIsMlp.reference_eq`: that result is `Mlp.result` of its arguments
  as well. Nothing was rewritten when the kernel was idealized, so the idealization claim is empty.
-/
import proofs.«101100_j40149354283216_2_alg».proof.Defs
import proofs.«101100_j40149354283216_2_alg».proof.Proof.Gen.Kernel.Frame
import proofs.«101100_j40149354283216_2_alg».proof.Proof.Gen.KernelIdeal.Frame
import proofs.«101100_j40149354283216_2_alg».proof.Proof.Gen.ReferenceIdeal.Run
import proofs.«101100_j40149354283216_2_alg».proof.Proof.Gen.ReferenceIdeal.Read
import proofs.«101100_j40149354283216_2_alg».proof.Proof.Gen.Pre_finite_inputs
import proofs.«101100_j40149354283216_2_alg».proof.Proof.RefIsMlp
import proofs.«101100_j40149354283216_2_alg».proof.Proof.KernelWhole

noncomputable section

namespace Cert.Proof.Claims

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does the kernel read at the extended reals. -/
theorem frame_kernel_ideal : Cert.frame_KernelIdeal := fun m ρ _ => Cert.KernelIdeal.Gen.frame m ρ

/-- And the reference: its run, with the statement about its result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- From memories that agree on the arguments the two programs end with the same result: the perceptron's result array
    of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v18_eq, Cert.ReferenceIdeal.RefValue.reference_eq, h0, h1, h2, h3, h4, h5, h6, h7, h8]

end Cert.Proof.Claims

end
-- ==== Proof.lean ====
/-
  The certificate's claim, assembled.

  A perceptron of four layers is applied to every pixel of an image by two programs, one a kernel that walks the pixels
  in blocks and one a reference written with whole-array operations. Each program runs to the end without a fault and
  leaves its arguments unchanged; the kernel read at the extended reals is the kernel's own text, nothing rewritten; and
  at the extended reals the two programs end with the same result array, the perceptron's output at every pixel. The
  claims are proved in `Proof/Claims.lean` over the modules beside it; here they are put together.
-/
import proofs.«101100_j40149354283216_2_alg».proof.Defs
import proofs.«101100_j40149354283216_2_alg».proof.Proof.Gen.Kernel
import proofs.«101100_j40149354283216_2_alg».proof.Proof.Gen.Kernel.Skeleton
import proofs.«101100_j40149354283216_2_alg».proof.Proof.Gen.Kernel.Launch
import proofs.«101100_j40149354283216_2_alg».proof.Proof.Gen.Kernel.Points
import proofs.«101100_j40149354283216_2_alg».proof.Proof.Gen.Kernel.Frame
import proofs.«101100_j40149354283216_2_alg».proof.Proof.Gen.KernelIdeal
import proofs.«101100_j40149354283216_2_alg».proof.Proof.Gen.KernelIdeal.Skeleton
import proofs.«101100_j40149354283216_2_alg».proof.Proof.Gen.KernelIdeal.Launch
import proofs.«101100_j40149354283216_2_alg».proof.Proof.Gen.KernelIdeal.Points
import proofs.«101100_j40149354283216_2_alg».proof.Proof.Gen.KernelIdeal.Frame
import proofs.«101100_j40149354283216_2_alg».proof.Proof.Gen.ReferenceIdeal
import proofs.«101100_j40149354283216_2_alg».proof.Proof.Gen.Pre_finite_inputs
import proofs.«101100_j40149354283216_2_alg».proof.Proof.Gen.ReferenceIdeal.Run
import proofs.«101100_j40149354283216_2_alg».proof.Proof.Gen.ReferenceIdeal.Read
import proofs.«101100_j40149354283216_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_kernel, Claims.frame_kernel_ideal, Claims.frame_reference_ideal, Claims.preserves, Claims.algebraic⟩

end Cert.Proof

end
